-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x64x64 : Shape := ⟨3, ![32, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn {F : FTy → Type} [FloatOps F] (main_arg0 : FVec F S32x256x64x64 .f32) (main_arg1 : FVec F S32x256x64x64 .f32) (main_arg2 : IVec S32x64x64 32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  main_v8
-- ==== Kernel.lean ====
abbrev S32x256x64x64 : Shape := ⟨4, ![32, 256, 64, 64]⟩
abbrev S32x64x64 : Shape := ⟨3, ![32, 64, 64]⟩
abbrev S32x128 : Shape := ⟨2, ![32, 128]⟩
abbrev S8x32x64x64 : Shape := ⟨4, ![8, 32, 64, 64]⟩
abbrev S8x64x64 : Shape := ⟨3, ![8, 64, 64]⟩
abbrev S8x128 : Shape := ⟨2, ![8, 128]⟩
abbrev S8x64 : Shape := ⟨2, ![8, 64]⟩
abbrev S8 : Shape := ⟨1, ![8]⟩
abbrev S8x1 : Shape := ⟨2, ![8, 1]⟩
abbrev S32x1 : Shape := ⟨2, ![32, 1]⟩
abbrev S32 : Shape := ⟨1, ![32]⟩
abbrev S_ : Shape := ⟨0, ![]⟩

abbrev nBuf : Space → Nat
  | .hbm => 14
  | .vmem => 13
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x64x64, .i32⟩
  | .hbm, ⟨3, _⟩ => ⟨S32x128, .f32⟩
  | .hbm, ⟨4, _⟩ => ⟨S32x128, .f32⟩
  | .hbm, ⟨5, _⟩ => ⟨S32x1, .f32⟩
  | .hbm, ⟨6, _⟩ => ⟨S32, .f32⟩
  | .hbm, ⟨7, _⟩ => ⟨S_, .f32⟩
  | .hbm, ⟨8, _⟩ => ⟨S_, .f32⟩
  | .hbm, ⟨9, _⟩ => ⟨S32x1, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8x32x64x64, .f32⟩
  | .local _ .vmem, ⟨1, _⟩ => ⟨S8x32x64x64, .f32⟩
  | .local _ .vmem, ⟨2, _⟩ => ⟨S8x32x64x64, .f32⟩
  | .local _ .vmem, ⟨3, _⟩ => ⟨S8x32x64x64, .f32⟩
  | .local _ .vmem, ⟨4, _⟩ => ⟨S8x64x64, .i32⟩
  | .local _ .vmem, ⟨5, _⟩ => ⟨S8x64x64, .i32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x64x64, .f32⟩
  | .local _ .vmem, ⟨11, _⟩ => ⟨S8x64x64, .f32⟩
  | .local _ .vmem, ⟨12, _⟩ => ⟨S8x64x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_28 : BitVec 32 := 0#32
  let v28 : BitVec 1 := Scalar.cmpi .ne v27 c0_i32_28
  v28

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S8x32x64x64_S8x32x64x64_0_0_0_0 : ∀ a, (![0, 0, 0, 0] : Fin 4 → Nat) a + S8x32x64x64.size a ≤ S8x32x64x64.size a
  h_S8x32x64x64 : 0 < S8x32x64x64.numel
  reduces_S8x32x64x64_S8x64x64 : S8x32x64x64.Reduces [1] S8x64x64
  natLt_1_32 : 1 < 32
  reduces_S8x64x64_S8x64 : S8x64x64.Reduces [2] S8x64
  reduces_S8x64_S8 : S8x64.Reduces [1] S8
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S32x128_S32x1_0_0 : S32x128.Slices ![0, 0] S32x1
  shapeCasts_S32x1_S32 : S32x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x64x64.size a ≤ S32x256x64x64.size a
  hwx0_0 : ∀ i : grid0.Coords, EltTy.bits .f32 = 32 ∨ (Rect.block (s := S32x256x64x64) S8x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x64x64.size a ≤ S32x256x64x64.size a
  hwx0_1 : ∀ i : grid0.Coords, EltTy.bits .f32 = 32 ∨ (Rect.block (s := S32x256x64x64) S8x32x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x64.size a ≤ S32x64x64.size a
  hwx0_2 : ∀ i : grid0.Coords, EltTy.bits .i32 = 32 ∨ (Rect.block (s := S32x64x64) S8x64x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S32x128.size a
  hwx0_3 : ∀ i : grid0.Coords, EltTy.bits .f32 = 32 ∨ (Rect.block (s := S32x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)

variable [Facts₀]

abbrev win0_0 : Pipeline.Window sig grid0 :=
  Pipeline.Window.ofSpec (Memref.whole main_arg0) S8x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x256x64x64 : Shape := ⟨4, ![32, 256, 64, 64]⟩
abbrev S32x64x64 : Shape := ⟨3, ![32, 64, 64]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x64x64, .i32⟩
  | .hbm, ⟨3, _⟩ => ⟨S32x256x64x64, .f32⟩
  | .hbm, ⟨4, _⟩ => ⟨S_, .f32⟩
  | .hbm, ⟨5, _⟩ => ⟨S32x64x64, .f32⟩
  | .hbm, ⟨6, _⟩ => ⟨S32x256x64x64, .f32⟩
  | .hbm, ⟨7, _⟩ => ⟨S_, .f32⟩
  | .hbm, ⟨8, _⟩ => ⟨S32x64x64, .f32⟩
  | .hbm, ⟨9, _⟩ => ⟨S32x64x64, .f32⟩
  | .hbm, ⟨10, _⟩ => ⟨S32x256x64x64, .f32⟩
  | .hbm, ⟨11, _⟩ => ⟨S_, .f32⟩
  | .hbm, ⟨12, _⟩ => ⟨S32x64x64, .f32⟩
  | .hbm, ⟨13, _⟩ => ⟨S32x64x64, .f32⟩
  | .hbm, ⟨14, _⟩ => ⟨S_, .f32⟩
  | .hbm, ⟨15, _⟩ => ⟨S32x64x64, .f32⟩
  | .hbm, ⟨16, _⟩ => ⟨S32x64x64, .f32⟩
  | .hbm, ⟨17, _⟩ => ⟨S_, .f32⟩
  | .hbm, ⟨18, _⟩ => ⟨S32x64x64, .f32⟩
  | .hbm, ⟨19, _⟩ => ⟨S32x64x64, .f32⟩
  | .hbm, ⟨20, _⟩ => ⟨S32x64x64, .f32⟩
  | .hbm, ⟨21, _⟩ => ⟨S32x64x64, .f32⟩
  | .hbm, ⟨22, _⟩ => ⟨S_, .i32⟩
  | .hbm, ⟨23, _⟩ => ⟨S32x64x64, .i32⟩
  | .hbm, ⟨24, _⟩ => ⟨S32x64x64, .i1⟩
  | .hbm, ⟨25, _⟩ => ⟨S32x64x64, .f32⟩
  | .hbm, ⟨26, _⟩ => ⟨S32x64x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S32x256x64x64_S32x64x64_d1 : S32x256x64x64.ReducesTo [1] S32x64x64
  h_S_ : 0 < S_.numel
  bcast_S_S32x64x64 : S_.BroadcastsInDim S32x64x64 (![] : Fin 0 → Fin S32x64x64.rank)
  reducesTo_S32x64x64_S_d0_1_2 : S32x64x64.ReducesTo [0, 1, 2] S_

variable [Facts₀]

class Facts : Prop extends Facts₀ where

variable [Facts]
-- ==== Proof.Spec.lean ====
/-
  The quantity both programs compute, over the extended reals.

  For activations `u v : [32, 256, 64, 64]` and an integer mask `k : [32, 64, 64]`: at every position `(b, h, w)` the cosine
  similarity along the channel axis, each norm clamped below by `ε`,

      sim b h w = ⟨u, v⟩ / (max ‖u‖ ε · max ‖v‖ ε),      ⟨x, y⟩ = ∑ c, x b c h w · y b c h w,   ‖x‖ = √⟨x, x⟩,

  weighted by the indicator `[k b h w ≠ 0]`, summed over all positions, and divided by the number of marked positions.
  Sums are written coordinate by coordinate (batch, then row, then column; channels as one sum of 256 terms); every
  other arrangement of the same terms is equal to this one because addition of extended reals is commutative and
  associative, with no finiteness needed.
-/
import Idealize.ShloMosaic.PureOps.Ideal
import Idealize.ShloMosaic.Lib.ValueIdx

noncomputable section

open scoped BigOperators

namespace Cert.MaskedCosine

open Idealize.ShloMosaic Idealize.ShloMosaic.ValueIdx

/-- The lower clamp of each norm: the binary32 value nearest 1e-8, as the extended real it denotes. -/
def eps : EReal := Ideal.ofBits .f32 0x322BCC77#32

/-- The indicator of a marked position: one when the mask word is not zero. -/
def ind (v : BitVec 32) : EReal := if v = 0#32 then 0 else 1

/-- Activations and masks as functions of a full index. -/
abbrev Act : Type := (⟨4, ![32, 256, 64, 64]⟩ : Shape).Idx → EReal
abbrev Msk : Type := (⟨3, ![32, 64, 64]⟩ : Shape).Idx → BitVec 32

/-- The inner product along the channel axis at one position. -/
def dot (x y : Act) (b : Fin 32) (h w : Fin 64) : EReal := ∑ c : Fin 256, x (ix4 b c h w) * y (ix4 b c h w)

/-- The quotient of an inner product by the two clamped norms. -/
def quot (n a b : EReal) : EReal := Ideal.div n (max (Ideal.sqrt a) eps * max (Ideal.sqrt b) eps)

/-- The clamped cosine similarity at one position. -/
def sim (u v : Act) (b : Fin 32) (h w : Fin 64) : EReal := quot (dot u v b h w) (dot u u b h w) (dot v v b h w)

/-- The masked sum of similarities, and the count of marked positions. -/
def num (u v : Act) (k : Msk) : EReal := ∑ b : Fin 32, ∑ h : Fin 64, ∑ w : Fin 64, sim u v b h w * ind (k (ix3 b h w))
def den (k : Msk) : EReal := ∑ b : Fin 32, ∑ h : Fin 64, ∑ w : Fin 64, ind (k (ix3 b h w))

/-- The masked mean similarity. -/
def result (u v : Act) (k : Msk) : EReal := Ideal.div (num u v k) (den k)

/-- A one-bit comparison result widened to 32 bits and read as a signed integer is the indicator. -/
theorem ind_of_signed (v : BitVec 32) :
    (((((IntOp.cmpi .ne v 0#32).setWidth 32).toInt : ℤ) : ℝ) : EReal) = ind v := by
  unfold ind
  by_cases h : v = 0#32
  · subst h; simp [IntOp.cmpi]
  · have hb : (v != 0#32) = true := bne_iff_ne.mpr h
    have : IntOp.cmpi .ne v 0#32 = 1#1 := by simp [IntOp.cmpi, hb]
    rw [this, if_neg h]; simp

/-- The same bit read directly as an unsigned integer is the indicator too. -/
theorem ind_of_unsigned (v : BitVec 32) :
    ((((IntOp.cmpi .ne v 0#32).toNat : ℕ) : ℝ) : EReal) = ind v := by
  unfold ind
  by_cases h : v = 0#32
  · subst h; simp [IntOp.cmpi]
  · have hb : (v != 0#32) = true := bne_iff_ne.mpr h
    have : IntOp.cmpi .ne v 0#32 = 1#1 := by simp [IntOp.cmpi, hb]
    rw [this, if_neg h]; simp

end Cert.MaskedCosine

end
-- ==== Proof.RefValue.lean ====
/-
  The reference program's result, at the ideal instance, is the masked mean cosine similarity of the specification.

  Read one operation at a time: the three channel sums are the inner products at a position, the two square roots
  clamped below by the same constant and multiplied are the divisor, the comparison with zero converted to a float
  is the indicator, and the two total sums over the positions are the numerator and the count. A sum over a rank-3
  index set is the triple sum over its coordinates.
-/
import proofs.«113364_j69913477644540_2_alg».proof.Proof.Spec
import proofs.«113364_j69913477644540_2_alg».proof.Proof.Gen.ReferenceIdeal.Read
import Idealize.ShloMosaic.Lib.ValueIdx
import Idealize.ShloMosaic.PureOps.Ideal.Laws

noncomputable section

open scoped BigOperators

namespace Cert.ReferenceIdeal.RefValue
open Cert.ReferenceIdeal Cert.ReferenceIdeal.Read Idealize.ShloMosaic Idealize.ShloMosaic.ValueIdx

/-! ## A sum over a rank-3 index set, coordinate by coordinate -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The index a channel sum reads at -/

/-- The channel sum at position `(b, h, w)` reads its operand at `(b, k, h, w)`. -/
theorem idx_v1_ix3 (b : Fin 32) (h w : Fin 64) (k : Fin 256) : idx_main_v1 (ix3 b h w) k = ix4 b k h w := by
  funext a; refine Fin.ext ?_
  match a with
  | ⟨0, _⟩ => rfl
  | ⟨1, _⟩ => rfl
  | ⟨2, _⟩ => rfl
  | ⟨3, _⟩ => rfl
theorem idx_v3_ix3 (b : Fin 32) (h w : Fin 64) (k : Fin 256) : idx_main_v3 (ix3 b h w) k = ix4 b k h w := by
  funext a; refine Fin.ext ?_
  match a with
  | ⟨0, _⟩ => rfl
  | ⟨1, _⟩ => rfl
  | ⟨2, _⟩ => rfl
  | ⟨3, _⟩ => rfl
theorem idx_v6_ix3 (b : Fin 32) (h w : Fin 64) (k : Fin 256) : idx_main_v6 (ix3 b h w) k = ix4 b k h w := by
  funext a; refine Fin.ext ?_
  match a with
  | ⟨0, _⟩ => rfl
  | ⟨1, _⟩ => rfl
  | ⟨2, _⟩ => rfl
  | ⟨3, _⟩ => rfl

/-! ## The three inner products -/

/-- The first channel sum is the inner product of the two activations. -/
theorem v1_eq (x0 x1 : (⟨S32x256x64x64, .f32⟩ : BufTy).Contents (Elt Ideal)) (b : Fin 32) (h w : Fin 64) :
    val_main_v1 (F := Ideal) x0 x1 (ix3 b h w) = Cert.MaskedCosine.dot x0 x1 b h w := by
  rw [val_main_v1_apply, val_main_cst_apply, Ideal.ofBits_def, Ideal.ofBits_zero_f32, zero_add]
  unfold Cert.MaskedCosine.dot
  refine Finset.sum_congr rfl fun k _ => ?_
  rw [val_main_v0_apply, idx_v1_ix3, Ideal.mulf_def]

/-- The second is the first activation's squared norm. -/
theorem v3_eq (x0 : (⟨S32x256x64x64, .f32⟩ : BufTy).Contents (Elt Ideal)) (b : Fin 32) (h w : Fin 64) :
    val_main_v3 (F := Ideal) x0 (ix3 b h w) = Cert.MaskedCosine.dot x0 x0 b h w := by
  rw [val_main_v3_apply, val_main_cst_0_apply, Ideal.ofBits_def, Ideal.ofBits_zero_f32, zero_add]
  unfold Cert.MaskedCosine.dot
  refine Finset.sum_congr rfl fun k _ => ?_
  rw [val_main_v2_apply, idx_v3_ix3, Ideal.mulf_def]

/-- The third is the second activation's squared norm. -/
theorem v6_eq (x1 : (⟨S32x256x64x64, .f32⟩ : BufTy).Contents (Elt Ideal)) (b : Fin 32) (h w : Fin 64) :
    val_main_v6 (F := Ideal) x1 (ix3 b h w) = Cert.MaskedCosine.dot x1 x1 b h w := by
  rw [val_main_v6_apply, val_main_cst_1_apply, Ideal.ofBits_def, Ideal.ofBits_zero_f32, zero_add]
  unfold Cert.MaskedCosine.dot
  refine Finset.sum_congr rfl fun k _ => ?_
  rw [val_main_v5_apply, idx_v6_ix3, Ideal.mulf_def]

/-! ## The similarity and the indicator at a position -/

/-- The quotient of the inner product by the two clamped norms is the specification's similarity. -/
theorem v13_eq (x0 x1 : (⟨S32x256x64x64, .f32⟩ : BufTy).Contents (Elt Ideal)) (b : Fin 32) (h w : Fin 64) :
    val_main_v13 (F := Ideal) x0 x1 (ix3 b h w) = Cert.MaskedCosine.sim x0 x1 b h w := by
  rw [val_main_v13_apply, val_main_v12_apply, val_main_v9_apply, val_main_v11_apply, val_main_v4_apply,
    val_main_v7_apply, val_main_v8_apply, val_main_v10_apply, val_main_cst_2_apply, val_main_cst_3_apply,
    v1_eq, v3_eq, v6_eq]
  simp only [Ideal.hostDivf_def, Ideal.mulf_def, Ideal.maximumf_def, Ideal.hostUnary_sqrt_def, Ideal.ofBits_def]
  rfl

/-- The comparison with zero, converted to a float, is the indicator of a marked position. -/
theorem v16_eq (x2 : (⟨S32x64x64, .i32⟩ : BufTy).Contents (Elt Ideal)) (j : S32x64x64.Idx) :
    val_main_v16 (F := Ideal) x2 j = Cert.MaskedCosine.ind (x2 j) := by
  rw [val_main_v16_apply, val_main_v15_apply, val_main_v14_apply, val_main_c_apply]
  exact Cert.MaskedCosine.ind_of_unsigned (x2 j)

/-! ## The two total sums -/

/-- The masked sum of the similarities over all positions is the specification's numerator. -/
theorem num_eq (x0 x1 : (⟨S32x256x64x64, .f32⟩ : BufTy).Contents (Elt Ideal)) (x2 : (⟨S32x64x64, .i32⟩ : BufTy).Contents (Elt Ideal)) :
    ∑ j : S32x64x64.Idx, val_main_v17 (F := Ideal) x0 x1 x2 j = Cert.MaskedCosine.num x0 x1 x2 := by
  refine (sum_idx3 (n0 := 32) (n1 := 64) (n2 := 64) _).trans ?_
  unfold Cert.MaskedCosine.num
  refine Finset.sum_congr rfl fun b _ => Finset.sum_congr rfl fun h _ => Finset.sum_congr rfl fun w _ => ?_
  rw [val_main_v17_apply, v13_eq, v16_eq, Ideal.mulf_def]

/-- The sum of the indicators over all positions is the specification's count. -/
theorem den_eq (x2 : (⟨S32x64x64, .i32⟩ : BufTy).Contents (Elt Ideal)) :
    ∑ j : S32x64x64.Idx, val_main_v16 (F := Ideal) x2 j = Cert.MaskedCosine.den x2 := by
  refine (sum_idx3 (n0 := 32) (n1 := 64) (n2 := 64) _).trans ?_
  unfold Cert.MaskedCosine.den
  refine Finset.sum_congr rfl fun b _ => Finset.sum_congr rfl fun h _ => Finset.sum_congr rfl fun w _ => ?_
  rw [v16_eq]

/-! ## The result -/

/-- The reference's result is the masked mean similarity. -/
theorem result_eq (x0 x1 : (⟨S32x256x64x64, .f32⟩ : BufTy).Contents (Elt Ideal)) (x2 : (⟨S32x64x64, .i32⟩ : BufTy).Contents (Elt Ideal)) :
    val_main_v20 (F := Ideal) x0 x1 x2 = fun _ => Cert.MaskedCosine.result x0 x1 x2 := by
  funext i
  rw [val_main_v20_apply, val_main_v18_apply, val_main_v19_apply, val_main_cst_4_apply, val_main_cst_5_apply,
    Ideal.hostDivf_def, Ideal.ofBits_def, Ideal.ofBits_zero_f32, zero_add, zero_add, num_eq, den_eq]
  rfl

end Cert.ReferenceIdeal.RefValue

end
-- ==== Proof.Pieces.lean ====
import proofs.«113364_j69913477644540_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What each control case of the kernel body leaves in the three channel-sum accumulators and (at the last channel
    block) in the two output blocks, as the body's pure payloads of the blocks and accumulators it found. -/

namespace Cert.KernelIdeal.Pieces
open Cert.KernelIdeal Cert.KernelIdeal.Gen
variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! ## First channel block: each accumulator is the block's channel sum added to the zero just stored -/

theorem first0 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : cond0_0 i) (hc1 : ¬cond0_1 i)
    (x0 : Vec F S8x32x64x64 .f32) (x1 : Vec F S8x32x64x64 .f32) (x2 : Vec F S8x64x64 .i32) :
    sout0_A_0 c i arg2 harg2 arg3 harg3 arg4 harg4 arg5 harg5 arg6 harg6 arg7 harg7 arg8 harg8 arg9 harg9 hc0 hc1 x0 x1 x2 = k0_pay8 x0 x1 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  try sl_unfold_words
  rw [View.canon_cons_unit_zero (S := S8x64x64) hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

theorem first1 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : cond0_0 i) (hc1 : ¬cond0_1 i)
    (x0 : Vec F S8x32x64x64 .f32) (x1 : Vec F S8x32x64x64 .f32) (x2 : Vec F S8x64x64 .i32) :
    sout0_A_1 c i arg2 harg2 arg3 harg3 arg4 harg4 arg5 harg5 arg6 harg6 arg7 harg7 arg8 harg8 arg9 harg9 hc0 hc1 x0 x1 x2 = k0_pay9 x0 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  try sl_unfold_words
  rw [View.canon_cons_unit_zero (S := S8x64x64) hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

theorem first2 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : cond0_0 i) (hc1 : ¬cond0_1 i)
    (x0 : Vec F S8x32x64x64 .f32) (x1 : Vec F S8x32x64x64 .f32) (x2 : Vec F S8x64x64 .i32) :
    sout0_A_2 c i arg2 harg2 arg3 harg3 arg4 harg4 arg5 harg5 arg6 harg6 arg7 harg7 arg8 harg8 arg9 harg9 hc0 hc1 x0 x1 x2 = k0_pay1 (k0_pay10 x1 (k0_pay7 (F := F))) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  try sl_unfold_words
  rw [View.canon_cons_unit_zero (S := S8x64x64) hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

/-! ## A middle channel block: the block's channel sum added to what the accumulator held -/

theorem mid0 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : ¬cond0_0 i) (hc1 : ¬cond0_1 i)
    (x0 : Vec F S8x32x64x64 .f32) (x1 : Vec F S8x32x64x64 .f32) (x2 : Vec F S8x64x64 .i32) (xs0 : Vec F S8x64x64 .f32) (xs1 : Vec F S8x64x64 .f32) (xs2 : Vec F S8x64x64 .f32) :
    sout0_B_0 c i arg2 harg2 arg3 harg3 arg4 harg4 arg5 harg5 arg6 harg6 arg7 harg7 arg8 harg8 arg9 harg9 hc0 hc1 x0 x1 x2 xs0 xs1 xs2 = k0_pay8 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B
  dsimp only
  try sl_unfold_words
  rw [View.canon_unit_zero hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

theorem mid1 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : ¬cond0_0 i) (hc1 : ¬cond0_1 i)
    (x0 : Vec F S8x32x64x64 .f32) (x1 : Vec F S8x32x64x64 .f32) (x2 : Vec F S8x64x64 .i32) (xs0 : Vec F S8x64x64 .f32) (xs1 : Vec F S8x64x64 .f32) (xs2 : Vec F S8x64x64 .f32) :
    sout0_B_1 c i arg2 harg2 arg3 harg3 arg4 harg4 arg5 harg5 arg6 harg6 arg7 harg7 arg8 harg8 arg9 harg9 hc0 hc1 x0 x1 x2 xs0 xs1 xs2 = k0_pay9 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B
  dsimp only
  try sl_unfold_words
  rw [View.canon_unit_zero hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

theorem mid2 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : ¬cond0_0 i) (hc1 : ¬cond0_1 i)
    (x0 : Vec F S8x32x64x64 .f32) (x1 : Vec F S8x32x64x64 .f32) (x2 : Vec F S8x64x64 .i32) (xs0 : Vec F S8x64x64 .f32) (xs1 : Vec F S8x64x64 .f32) (xs2 : Vec F S8x64x64 .f32) :
    sout0_B_2 c i arg2 harg2 arg3 harg3 arg4 harg4 arg5 harg5 arg6 harg6 arg7 harg7 arg8 harg8 arg9 harg9 hc0 hc1 x0 x1 x2 xs0 xs1 xs2 = k0_pay1 (k0_pay10 x1 xs2) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B
  dsimp only
  try sl_unfold_words
  rw [View.canon_unit_zero hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

/-! ## The last channel block: the same accumulation, then the two output blocks from the finished accumulators -/

theorem last0 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : ¬cond0_0 i) (hc1 : cond0_1 i)
    (x0 : Vec F S8x32x64x64 .f32) (x1 : Vec F S8x32x64x64 .f32) (x2 : Vec F S8x64x64 .i32) (xs0 : Vec F S8x64x64 .f32) (xs1 : Vec F S8x64x64 .f32) (xs2 : Vec F S8x64x64 .f32) :
    sout0_C_0 c i arg2 harg2 arg3 harg3 arg4 harg4 arg5 harg5 arg6 harg6 arg7 harg7 arg8 harg8 arg9 harg9 hc0 hc1 x0 x1 x2 xs0 xs1 xs2 = k0_pay8 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C
  dsimp only
  try sl_unfold_words
  rw [View.canon_unit_zero hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

theorem last1 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : ¬cond0_0 i) (hc1 : cond0_1 i)
    (x0 : Vec F S8x32x64x64 .f32) (x1 : Vec F S8x32x64x64 .f32) (x2 : Vec F S8x64x64 .i32) (xs0 : Vec F S8x64x64 .f32) (xs1 : Vec F S8x64x64 .f32) (xs2 : Vec F S8x64x64 .f32) :
    sout0_C_1 c i arg2 harg2 arg3 harg3 arg4 harg4 arg5 harg5 arg6 harg6 arg7 harg7 arg8 harg8 arg9 harg9 hc0 hc1 x0 x1 x2 xs0 xs1 xs2 = k0_pay9 x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C
  dsimp only
  try sl_unfold_words
  rw [View.canon_unit_zero hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

theorem last2 (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : ¬cond0_0 i) (hc1 : cond0_1 i)
    (x0 : Vec F S8x32x64x64 .f32) (x1 : Vec F S8x32x64x64 .f32) (x2 : Vec F S8x64x64 .i32) (xs0 : Vec F S8x64x64 .f32) (xs1 : Vec F S8x64x64 .f32) (xs2 : Vec F S8x64x64 .f32) :
    sout0_C_2 c i arg2 harg2 arg3 harg3 arg4 harg4 arg5 harg5 arg6 harg6 arg7 harg7 arg8 harg8 arg9 harg9 hc0 hc1 x0 x1 x2 xs0 xs1 xs2 = k0_pay1 (k0_pay10 x1 xs2) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C
  dsimp only
  try sl_unfold_words
  rw [View.canon_unit_zero hz3]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

theorem lastNum (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : ¬cond0_0 i) (hc1 : cond0_1 i)
    (x0 : Vec F S8x32x64x64 .f32) (x1 : Vec F S8x32x64x64 .f32) (x2 : Vec F S8x64x64 .i32) (xs0 : Vec F S8x64x64 .f32) (xs1 : Vec F S8x64x64 .f32) (xs2 : Vec F S8x64x64 .f32) :
    out0_C_3 c i arg2 harg2 arg3 harg3 arg4 harg4 arg5 harg5 arg6 harg6 arg7 harg7 arg8 harg8 arg9 harg9 hc0 hc1 x0 x1 x2 xs0 xs1 xs2 = k0_pay3 (k0_pay9 x0 xs1) (k0_pay1 (k0_pay10 x1 xs2)) (k0_pay8 x0 x1 xs0) x2 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C
  dsimp only
  try sl_unfold_words
  rw [View.canon_unit_zero hz2]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

theorem lastCount (c : Dev nD) (i : grid0.Coords) (arg2 : Memref sig .tc .vmem S8x32x64x64 .f32) (harg2 : arg2.IsWhole) (arg3 : Memref sig .tc .vmem S8x32x64x64 .f32) (harg3 : arg3.IsWhole) (arg4 : Memref sig .tc .vmem S8x64x64 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x64x64 .f32) (harg7 : arg7.IsWhole) (arg8 : Memref sig .tc .vmem S8x64x64 .f32) (harg8 : arg8.IsWhole) (arg9 : Memref sig .tc .vmem S8x64x64 .f32) (harg9 : arg9.IsWhole) (hc0 : ¬cond0_0 i) (hc1 : cond0_1 i)
    (x0 : Vec F S8x32x64x64 .f32) (x1 : Vec F S8x32x64x64 .f32) (x2 : Vec F S8x64x64 .i32) (xs0 : Vec F S8x64x64 .f32) (xs1 : Vec F S8x64x64 .f32) (xs2 : Vec F S8x64x64 .f32) :
    out0_C_4 c i arg2 harg2 arg3 harg3 arg4 harg4 arg5 harg5 arg6 harg6 arg7 harg7 arg8 harg8 arg9 harg9 hc0 hc1 x0 x1 x2 xs0 xs1 xs2 = k0_pay4 x2 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C
  dsimp only
  try sl_unfold_words
  rw [View.canon_unit_zero hz2]
  try simp only [View.readCov_unit_zero (S := S8x64x64) _ hz3]
  simp only [View.readAt_eq_ld, harg2.read_unread, harg3.read_unread, harg4.read_unread, harg7.read_unread, harg8.read_unread, harg9.read_unread, View.ld_unit_zero (S := S8x32x64x64) hz4, View.ld_unit_zero (S := S8x64x64) hz3, View.ld_unit_zero (S := S8x128) hz2]

end Cert.KernelIdeal.Pieces

end
-- ==== Proof.Steps.lean ====
import proofs.«113364_j69913477644540_2_alg».proof.Proof.Pieces

set_option maxRecDepth 16384

noncomputable section

open Idealize.ShloMosaic Idealize.ShloMosaic.TcCoe Idealize.SL.Sem

/-! The accumulation over grid points, one step at a time. After point `t` the three accumulators hold: at the first
    channel block of a batch block (`t % 8 = 0`) the block's channel sums added to zero; at every later one the block's
    channel sums added to what the point before left. At the last channel block (`t % 8 = 7`) the two output blocks are
    the final payloads of the accumulators just finished and of the mask's block. -/

namespace Cert.KernelIdeal.Steps
open Cert.KernelIdeal Cert.KernelIdeal.Gen Cert.KernelIdeal.Pieces
variable {F : FTy → Type} [FloatOps F]
variable (m : (ℓ : Loc nD τ sig) → Buf (Elt F) ℓ)

/-- The accumulators of ⟨u, v⟩, ⟨u, u⟩ and ⟨v, v⟩ after the body at position `n`. -/
abbrev acc0 (c : Dev nD) (n : ℕ) (hn : n < cfg0.N) : Vec F S8x64x64 .f32 := (outsAt0 m c n hn).2.2.1
abbrev acc1 (c : Dev nD) (n : ℕ) (hn : n < cfg0.N) : Vec F S8x64x64 .f32 := (outsAt0 m c n hn).2.2.2.1
abbrev acc2 (c : Dev nD) (n : ℕ) (hn : n < cfg0.N) : Vec F S8x64x64 .f32 := (outsAt0 m c n hn).2.2.2.2

theorem prev_lt (t : Fin cfg0.N) : t.val - 1 < cfg0.N := Nat.lt_of_le_of_lt (Nat.sub_le _ _) t.isLt

set_option maxHeartbeats 2000000 in
/-- The first channel block of a batch block starts the three sums from zero. -/
theorem step_first (c : Dev nD) (t : Fin cfg0.N) (h0 : t.val % 8 = 0) :
    acc0 m c t.val t.isLt = k0_pay8 (iblk m c 0 t) (iblk m c 1 t) (k0_pay5 (F := F))
    ∧ acc1 m c t.val t.isLt = k0_pay9 (iblk m c 0 t) (k0_pay6 (F := F))
    ∧ acc2 m c t.val t.isLt = k0_pay1 (k0_pay10 (iblk m c 1 t) (k0_pay7 (F := F))) := by
  have h1 : ¬t.val % 8 = 7 := by omega
  have e := outsAt0_A m c t h0 h1
  exact ⟨(congrArg (fun z => z.2.2.1) e).trans (first0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)),
    (congrArg (fun z => z.2.2.2.1) e).trans (first1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)),
    (congrArg (fun z => z.2.2.2.2) e).trans (first2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))⟩

set_option maxHeartbeats 2000000 in
/-- A later channel block that is not the last adds its channel sums to what the point before left. -/
theorem step_mid (c : Dev nD) (t : Fin cfg0.N) (h0 : ¬t.val % 8 = 0) (h1 : ¬t.val % 8 = 7) :
    acc0 m c t.val t.isLt = k0_pay8 (iblk m c 0 t) (iblk m c 1 t) (acc0 m c (t.val - 1) (prev_lt t))
    ∧ acc1 m c t.val t.isLt = k0_pay9 (iblk m c 0 t) (acc1 m c (t.val - 1) (prev_lt t))
    ∧ acc2 m c t.val t.isLt = k0_pay1 (k0_pay10 (iblk m c 1 t) (acc2 m c (t.val - 1) (prev_lt t))) := by
  have e := outsAt0_B m c t h0 h1
  refine ⟨?_, ?_, ?_⟩
  · exact (congrArg (fun z => z.2.2.1) e).trans (mid0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (acc0 m c (t.val - 1) (prev_lt t)) (acc1 m c (t.val - 1) (prev_lt t)) (acc2 m c (t.val - 1) (prev_lt t)))
  · exact (congrArg (fun z => z.2.2.2.1) e).trans (mid1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (acc0 m c (t.val - 1) (prev_lt t)) (acc1 m c (t.val - 1) (prev_lt t)) (acc2 m c (t.val - 1) (prev_lt t)))
  · exact (congrArg (fun z => z.2.2.2.2) e).trans (mid2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (acc0 m c (t.val - 1) (prev_lt t)) (acc1 m c (t.val - 1) (prev_lt t)) (acc2 m c (t.val - 1) (prev_lt t)))

set_option maxHeartbeats 2000000 in
/-- So does the last one. -/
theorem step_last (c : Dev nD) (t : Fin cfg0.N) (h0 : ¬t.val % 8 = 0) (h1 : t.val % 8 = 7) :
    acc0 m c t.val t.isLt = k0_pay8 (iblk m c 0 t) (iblk m c 1 t) (acc0 m c (t.val - 1) (prev_lt t))
    ∧ acc1 m c t.val t.isLt = k0_pay9 (iblk m c 0 t) (acc1 m c (t.val - 1) (prev_lt t))
    ∧ acc2 m c t.val t.isLt = k0_pay1 (k0_pay10 (iblk m c 1 t) (acc2 m c (t.val - 1) (prev_lt t))) := by
  have e := outsAt0_C m c t h0 h1
  refine ⟨?_, ?_, ?_⟩
  · exact (congrArg (fun z => z.2.2.1) e).trans (last0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (acc0 m c (t.val - 1) (prev_lt t)) (acc1 m c (t.val - 1) (prev_lt t)) (acc2 m c (t.val - 1) (prev_lt t)))
  · exact (congrArg (fun z => z.2.2.2.1) e).trans (last1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (acc0 m c (t.val - 1) (prev_lt t)) (acc1 m c (t.val - 1) (prev_lt t)) (acc2 m c (t.val - 1) (prev_lt t)))
  · exact (congrArg (fun z => z.2.2.2.2) e).trans (last2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (acc0 m c (t.val - 1) (prev_lt t)) (acc1 m c (t.val - 1) (prev_lt t)) (acc2 m c (t.val - 1) (prev_lt t)))

/-- Every later channel block adds its channel sums to what the point before left. -/
theorem step_next (c : Dev nD) (t : Fin cfg0.N) (h0 : ¬t.val % 8 = 0) :
    acc0 m c t.val t.isLt = k0_pay8 (iblk m c 0 t) (iblk m c 1 t) (acc0 m c (t.val - 1) (prev_lt t))
    ∧ acc1 m c t.val t.isLt = k0_pay9 (iblk m c 0 t) (acc1 m c (t.val - 1) (prev_lt t))
    ∧ acc2 m c t.val t.isLt = k0_pay1 (k0_pay10 (iblk m c 1 t) (acc2 m c (t.val - 1) (prev_lt t))) := by
  by_cases h1 : t.val % 8 = 7
  · exact step_last m c t h0 h1
  · exact step_mid m c t h0 h1

set_option maxHeartbeats 2000000 in
/-- At the last channel block the output blocks are the final payloads of the finished accumulators. -/
theorem step_out (c : Dev nD) (t : Fin cfg0.N) (h1 : t.val % 8 = 7) :
    (outsAt0 m c t.val t.isLt).1 = k0_pay3 (acc1 m c t.val t.isLt) (acc2 m c t.val t.isLt) (acc0 m c t.val t.isLt) (iblk m c 2 t)
    ∧ (outsAt0 m c t.val t.isLt).2.1 = k0_pay4 (iblk m c 2 t) := by
  have h0 : ¬t.val % 8 = 0 := by omega
  obtain ⟨e0, e1, e2⟩ := step_next m c t h0
  have e := outsAt0_C m c t h0 h1
  refine ⟨?_, (congrArg (fun z => z.2.1) e).trans (lastCount c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (acc0 m c (t.val - 1) (prev_lt t)) (acc1 m c (t.val - 1) (prev_lt t)) (acc2 m c (t.val - 1) (prev_lt t)))⟩
  rw [e0, e1, e2]
  exact (congrArg (fun z => z.1) e).trans (lastNum c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (acc0 m c (t.val - 1) (prev_lt t)) (acc1 m c (t.val - 1) (prev_lt t)) (acc2 m c (t.val - 1) (prev_lt t)))

end Cert.KernelIdeal.Steps

end
-- ==== Proof.Blocks.lean ====
import proofs.«113364_j69913477644540_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

/-! Where the blocks of the three input windows sit in their arrays. Grid point `t` of the 4 × 8 grid is batch block
    `t / 8` and channel block `t % 8`: the activations' block holds batches `8 (t / 8) …` and channels `32 (t % 8) …`,
    all rows and columns; the mask's block holds the same batches, all rows and columns. -/

namespace Cert.KernelIdeal.Blocks
open Cert.KernelIdeal Cert.KernelIdeal.Gen
variable {F : FTy → Type} [FloatOps F]
variable (m : (ℓ : Loc nD τ sig) → Buf (Elt F) ℓ)

theorem lt32 (t : Fin cfg0.N) : t.val < 32 := lt_of_lt_of_eq t.isLt (show cfg0.N = 32 from N_0)

theorem index0 : ∀ t : Fin cfg0.N, win0_0.index t 0 = t.val / 8 ∧ win0_0.index t 1 = t.val % 8 ∧ win0_0.index t 2 = 0 ∧ win0_0.index t 3 = 0 :=
  (by decide +kernel : ∀ t : Fin grid0.N, win0_0.index t 0 = t.val / 8 ∧ win0_0.index t 1 = t.val % 8 ∧ win0_0.index t 2 = 0 ∧ win0_0.index t 3 = 0)
theorem index1 : ∀ t : Fin cfg0.N, win0_1.index t 0 = t.val / 8 ∧ win0_1.index t 1 = t.val % 8 ∧ win0_1.index t 2 = 0 ∧ win0_1.index t 3 = 0 :=
  (by decide +kernel : ∀ t : Fin grid0.N, win0_1.index t 0 = t.val / 8 ∧ win0_1.index t 1 = t.val % 8 ∧ win0_1.index t 2 = 0 ∧ win0_1.index t 3 = 0)
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- An element of the first activation's block at point `t` is the array's element at the shifted batch and channel. -/
theorem block0 (c : Dev nD) (t : Fin cfg0.N) (x : S8x32x64x64.Idx) (k : S32x256x64x64.Idx)
    (h0 : (k 0).val = 8 * (t.val / 8) + (x 0).val) (h1 : (k 1).val = 32 * (t.val % 8) + (x 1).val)
    (h2 : (k 2).val = (x 2).val) (h3 : (k 3).val = (x 3).val) :
    (iblk m c 0 t : Vec F S8x32x64x64 .f32) x = (m ((c : Thread nD τ).loc main_arg0) : S32x256x64x64.Idx → Elt F .f32) k := by
  have hi := index0 t
  unfold iblk
  rw [View.read_apply]
  show (m (c.tc.loc main_arg0) : S32x256x64x64.Idx → Elt F .f32) _ = m (c.tc.loc main_arg0) _
  congr 1
  funext a
  apply Fin.ext
  match a with
  | ⟨0, _⟩ => show win0_0.index t 0 * 8 + 1 * (x 0).val = (k 0).val; rw [hi.1, h0]; omega
  | ⟨1, _⟩ => show win0_0.index t 1 * 32 + 1 * (x 1).val = (k 1).val; rw [hi.2.1, h1]; omega
  | ⟨2, _⟩ => show win0_0.index t 2 * 64 + 1 * (x 2).val = (k 2).val; rw [hi.2.2.1, h2]; omega
  | ⟨3, _⟩ => show win0_0.index t 3 * 64 + 1 * (x 3).val = (k 3).val; rw [hi.2.2.2, h3]; omega

/-- The same for the second activation. -/
theorem block1 (c : Dev nD) (t : Fin cfg0.N) (x : S8x32x64x64.Idx) (k : S32x256x64x64.Idx)
    (h0 : (k 0).val = 8 * (t.val / 8) + (x 0).val) (h1 : (k 1).val = 32 * (t.val % 8) + (x 1).val)
    (h2 : (k 2).val = (x 2).val) (h3 : (k 3).val = (x 3).val) :
    (iblk m c 1 t : Vec F S8x32x64x64 .f32) x = (m ((c : Thread nD τ).loc main_arg1) : S32x256x64x64.Idx → Elt F .f32) k := by
  have hi := index1 t
  unfold iblk
  rw [View.read_apply]
  show (m (c.tc.loc main_arg1) : S32x256x64x64.Idx → Elt F .f32) _ = m (c.tc.loc main_arg1) _
  congr 1
  funext a
  apply Fin.ext
  match a with
  | ⟨0, _⟩ => show win0_1.index t 0 * 8 + 1 * (x 0).val = (k 0).val; rw [hi.1, h0]; omega
  | ⟨1, _⟩ => show win0_1.index t 1 * 32 + 1 * (x 1).val = (k 1).val; rw [hi.2.1, h1]; omega
  | ⟨2, _⟩ => show win0_1.index t 2 * 64 + 1 * (x 2).val = (k 2).val; rw [hi.2.2.1, h2]; omega
  | ⟨3, _⟩ => show win0_1.index t 3 * 64 + 1 * (x 3).val = (k 3).val; rw [hi.2.2.2, h3]; omega

/-- An element of the mask's block at point `t` is the mask's element at the shifted batch. -/
theorem block2 (c : Dev nD) (t : Fin cfg0.N) (x : S8x64x64.Idx) (k : S32x64x64.Idx)
    (h0 : (k 0).val = 8 * (t.val / 8) + (x 0).val) (h1 : (k 1).val = (x 1).val) (h2 : (k 2).val = (x 2).val) :
    (iblk m c 2 t : Vec F S8x64x64 .i32) x = (m ((c : Thread nD τ).loc main_arg2) : S32x64x64.Idx → Elt F .i32) k := by
  have hi := index2 t
  unfold iblk
  rw [View.read_apply]
  show (m (c.tc.loc main_arg2) : S32x64x64.Idx → Elt F .i32) _ = m (c.tc.loc main_arg2) _
  congr 1
  funext a
  apply Fin.ext
  match a with
  | ⟨0, _⟩ => show win0_2.index t 0 * 8 + 1 * (x 0).val = (k 0).val; rw [hi.1, h0]; omega
  | ⟨1, _⟩ => show win0_2.index t 1 * 64 + 1 * (x 1).val = (k 1).val; rw [hi.2.1, h1]; omega
  | ⟨2, _⟩ => show win0_2.index t 2 * 64 + 1 * (x 2).val = (k 2).val; rw [hi.2.2, h2]; omega

end Cert.KernelIdeal.Blocks

end
-- ==== Proof.Payload.lean ====
/-
  The kernel body's pure payloads read at an index, over the extended reals: the accumulators' initial value and
  update step (the old value plus a sum over the 32 channels of a block), and the two stored results (a double sum
  over rows and columns of one batch entry, spread over the lanes).
-/
import proofs.«113364_j69913477644540_2_alg».proof.Proof.Spec
import proofs.«113364_j69913477644540_2_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout

set_option synthInstance.maxSize 4096

noncomputable section

open scoped BigOperators

namespace Cert.KernelIdeal.Payload

open Cert.KernelIdeal Cert.KernelIdeal.Gen Idealize.ShloMosaic Idealize.ShloMosaic.ValueIdx Cert.MaskedCosine
open Facts₀ Facts

variable [Facts]

/-- The three accumulators start at zero: a splat of the zero word, cast to its own shape. -/
theorem zero5 (j : S8x64x64.Idx) : k0_pay5 (F := Ideal) j = 0 := by
  unfold k0_pay5
  rw [shapeCast_self]
  exact Ideal.ofBits_zero_f32

theorem zero6 (j : S8x64x64.Idx) : k0_pay6 (F := Ideal) j = 0 := by
  unfold k0_pay6
  rw [shapeCast_self]
  exact Ideal.ofBits_zero_f32

theorem zero7 (j : S8x64x64.Idx) : k0_pay7 (F := Ideal) j = 0 := by
  unfold k0_pay7
  rw [shapeCast_self]
  exact Ideal.ofBits_zero_f32

/-- A cast to the same shape stores the value unchanged. -/
theorem cast1 (v : FVec Ideal S8x64x64 .f32) : k0_pay1 v = v := by
  unfold k0_pay1
  exact shapeCast_self _ _

/-- The sum over the channel axis of a rank-4 block, read at a position, is the sum over the 32 channels. -/
private theorem reduce_chan (src : FVec Ideal S8x32x64x64 .f32) (p : Fin 8) (h w : Fin 64) :
    multiReduction .add [1] S8x64x64 src 0x00000000#32 Facts₀.reduces_S8x32x64x64_S8x64x64 (.inl rfl) rfl (ix3 p h w)
      = ∑ c : Fin 32, src (ix4 p c h w) := by
  refine (Ideal.multiReduction_add_single src _ Facts₀.reduces_S8x32x64x64_S8x64x64 _ _ (ix3 p h w)).trans ?_
  refine Finset.sum_congr rfl fun k _ => congrArg src (funext fun a => Fin.ext ?_)
  match a with
  | ⟨0, _⟩ => rfl
  | ⟨1, _⟩ => rfl
  | ⟨2, _⟩ => rfl
  | ⟨3, _⟩ => rfl

/-- One step of the inner-product accumulator: the old value plus the channel sum of the products. -/
theorem acc8 (x0 x1 : Vec Ideal S8x32x64x64 .f32) (xs : Vec Ideal S8x64x64 .f32) (p : Fin 8) (h w : Fin 64) :
    k0_pay8 x0 x1 xs (ix3 p h w) = xs (ix3 p h w) + ∑ c : Fin 32, x0 (ix4 p c h w) * x1 (ix4 p c h w) := by
  unfold k0_pay8
  rw [shapeCast_self]
  show xs (ix3 p h w) + _ = _
  exact congrArg (xs (ix3 p h w) + ·) (reduce_chan (mulf x0 x1) p h w)

/-- One step of the first squared-norm accumulator. -/
theorem acc9 (x0 : Vec Ideal S8x32x64x64 .f32) (xs : Vec Ideal S8x64x64 .f32) (p : Fin 8) (h w : Fin 64) :
    k0_pay9 x0 xs (ix3 p h w) = xs (ix3 p h w) + ∑ c : Fin 32, x0 (ix4 p c h w) * x0 (ix4 p c h w) := by
  unfold k0_pay9
  rw [shapeCast_self]
  show xs (ix3 p h w) + _ = _
  exact congrArg (xs (ix3 p h w) + ·) (reduce_chan (mulf x0 x0) p h w)

/-- One step of the second squared-norm accumulator. -/
theorem acc10 (x1 : Vec Ideal S8x32x64x64 .f32) (xs : Vec Ideal S8x64x64 .f32) (p : Fin 8) (h w : Fin 64) :
    k0_pay10 x1 xs (ix3 p h w) = xs (ix3 p h w) + ∑ c : Fin 32, x1 (ix4 p c h w) * x1 (ix4 p c h w) := by
  unfold k0_pay10
  show xs (ix3 p h w) + _ = _
  exact congrArg (xs (ix3 p h w) + ·) (reduce_chan (mulf x1 x1) p h w)

/-- The mask converted to a float is the indicator of a marked position. -/
private theorem mask_apply (x2 : Vec Ideal S8x64x64 .i32) (j : S8x64x64.Idx) :
    k0_pay2 (F := Ideal) x2 j = ind (x2 j) := by
  unfold k0_pay2
  exact ind_of_signed (x2 j)

/-- The sum over the column axis of a rank-3 block, read at a row, is the sum over the 64 columns. -/
private theorem reduce_col (src : FVec Ideal S8x64x64 .f32) (p : Fin 8) (h : Fin 64) :
    multiReduction .add [2] S8x64 src 0x00000000#32 Facts₀.reduces_S8x64x64_S8x64 (.inl rfl) rfl (ix2 p h)
      = ∑ w : Fin 64, src (ix3 p h w) := by
  refine (Ideal.multiReduction_add_single src _ Facts₀.reduces_S8x64x64_S8x64 _ _ (ix2 p h)).trans ?_
  refine Finset.sum_congr rfl fun k _ => congrArg src (funext fun a => Fin.ext ?_)
  match a with
  | ⟨0, _⟩ => rfl
  | ⟨1, _⟩ => rfl
  | ⟨2, _⟩ => rfl

/-- The sum over the row axis of a rank-2 block, read at a batch entry, is the sum over the 64 rows. -/
private theorem reduce_row (src : FVec Ideal S8x64 .f32) (p : Fin 8) :
    multiReduction .add [1] S8 src 0x00000000#32 Facts₀.reduces_S8x64_S8 (.inl rfl) rfl (ix1 p)
      = ∑ h : Fin 64, src (ix2 p h) := by
  refine (Ideal.multiReduction_add_single src _ Facts₀.reduces_S8x64_S8 _ _ (ix1 p)).trans ?_
  refine Finset.sum_congr rfl fun k _ => congrArg src (funext fun a => Fin.ext ?_)
  match a with
  | ⟨0, _⟩ => rfl
  | ⟨1, _⟩ => rfl

/-- The two reductions in a row: the sum over rows of the sums over columns. -/
private theorem reduce_rc (src : FVec Ideal S8x64x64 .f32) (p : Fin 8) :
    multiReduction .add [1] S8
        (multiReduction .add [2] S8x64 src 0x00000000#32 Facts₀.reduces_S8x64x64_S8x64 (.inl rfl) rfl)
        0x00000000#32 Facts₀.reduces_S8x64_S8 (.inl rfl) rfl (ix1 p)
      = ∑ h : Fin 64, ∑ w : Fin 64, src (ix3 p h w) :=
  (reduce_row _ p).trans (Finset.sum_congr rfl fun h _ => reduce_col src p h)

/-- A vector of 8 entries viewed as a column reads, at `(p, u)`, the entry `p`. -/
private theorem col_apply {α : Type} (v : S8.Idx → α) (p : Fin 8) (u : Fin 1) :
    shapeCast S8x1 v Facts₀.shapeCasts_S8_S8x1 (ix2 p u) = v (ix1 p) :=
  shapeCast_apply v Facts₀.shapeCasts_S8_S8x1 _ _ (by
    have hu : u.val = 0 := by omega
    rw [Shape.rowMajor_val_one, Shape.rowMajor_val_two]
    show p.val = p.val * 1 + u.val
    rw [hu, Nat.mul_one, Nat.add_zero])

/-- A column of 8 entries broadcast over 128 lanes reads, at `(p, l)`, the column's entry `p`. -/
private theorem lanes_apply {α : Type} (v : S8x1.Idx → α) (p : Fin 8) (l : Fin 128) :
    broadcastTo S8x128 v Facts₀.broadcasts_S8x1_S8x128 (ix2 p l) = v (ix2 p (0 : Fin 1)) := by
  refine broadcastTo_apply v Facts₀.broadcasts_S8x1_S8x128 (ix2 p l) (ix2 p (0 : Fin 1)) fun ax => ?_
  match ax with
  | ⟨0, _⟩ => rfl
  | ⟨1, _⟩ => rfl

/-- The stored form of a vector of 8 entries: made a column, then spread over the lanes. -/
private theorem spread_apply {α : Type} (v : S8.Idx → α) (p : Fin 8) (l : Fin 128) :
    broadcastTo S8x128 (shapeCast S8x1 (shapeCast S8x1 v Facts₀.shapeCasts_S8_S8x1) Facts₀.shapeCasts_S8x1_S8x1)
        Facts₀.broadcasts_S8x1_S8x128 (ix2 p l) = v (ix1 p) := by
  refine (lanes_apply _ p l).trans ?_
  rw [shapeCast_self]
  exact col_apply v p 0

/-- The count of marked positions of one batch entry, on every lane. -/
theorem fin4 (x2 : Vec Ideal S8x64x64 .i32) (p : Fin 8) (l : Fin 128) :
    k0_pay4 x2 (ix2 p l) = ∑ h : Fin 64, ∑ w : Fin 64, ind (x2 (ix3 p h w)) := by
  unfold k0_pay4
  refine (spread_apply _ p l).trans ?_
  refine (reduce_rc _ p).trans ?_
  exact Finset.sum_congr rfl fun h _ => Finset.sum_congr rfl fun w _ => mask_apply x2 (ix3 p h w)

/-- The masked sum of clamped cosine quotients of one batch entry, on every lane. -/
theorem fin3 (a1 a2 a0 : Vec Ideal S8x64x64 .f32) (x2 : Vec Ideal S8x64x64 .i32) (p : Fin 8) (l : Fin 128) :
    k0_pay3 a1 a2 a0 x2 (ix2 p l)
      = ∑ h : Fin 64, ∑ w : Fin 64, quot (a0 (ix3 p h w)) (a1 (ix3 p h w)) (a2 (ix3 p h w)) * ind (x2 (ix3 p h w)) := by
  unfold k0_pay3
  refine (spread_apply _ p l).trans ?_
  refine (reduce_rc _ p).trans ?_
  refine Finset.sum_congr rfl fun h _ => Finset.sum_congr rfl fun w _ => ?_
  show Ideal.div (a0 (ix3 p h w))
      (max (Ideal.sqrt (a1 (ix3 p h w))) eps * max (Ideal.sqrt (a2 (ix3 p h w))) eps) * k0_pay2 x2 (ix3 p h w) = _
  rw [mask_apply]
  rfl

end Cert.KernelIdeal.Payload

end
-- ==== Proof.Accum.lean ====
import proofs.«113364_j69913477644540_2_alg».proof.Proof.Spec
import proofs.«113364_j69913477644540_2_alg».proof.Proof.Steps
import proofs.«113364_j69913477644540_2_alg».proof.Proof.Blocks
import proofs.«113364_j69913477644540_2_alg».proof.Proof.Payload

noncomputable section

open scoped BigOperators
open Idealize.ShloMosaic Idealize.ShloMosaic.TcCoe Idealize.SL.Sem

/-! The accumulation in closed form, over the extended reals. Grid point `n` is batch block `n / 8`, channel block
    `n % 8`. After it the three accumulators hold, at batch row `p`, row `h`, column `w`, the sum over the first
    `n % 8 + 1` channel blocks of the 32 products in each block — a partial inner product along the channel axis at batch
    `8 (n / 8) + p`. After the eighth block this is the whole inner product (256 = 8 · 32 channels, each met once), so the
    numerator block written there holds, in each of its 128 lanes, the masked sum of similarities over one batch's
    positions, and the count block the number of marked positions. -/

namespace Cert.KernelIdeal.Accum
open Cert.KernelIdeal Cert.KernelIdeal.Gen Cert.KernelIdeal.Steps Cert.KernelIdeal.Blocks Cert.KernelIdeal.Payload
open Cert.MaskedCosine Idealize.ShloMosaic.ValueIdx

variable (m : (ℓ : Loc nD τ sig) → Buf (Elt Ideal) ℓ)

/-- The three argument arrays on a core. -/
abbrev argU (c : Dev nD) : Act := m ((c : Thread nD τ).loc main_arg0)
abbrev argV (c : Dev nD) : Act := m ((c : Thread nD τ).loc main_arg1)
abbrev argK (c : Dev nD) : Msk := m ((c : Thread nD τ).loc main_arg2)

/-- Batch row `p` of batch block `bi`, and channel `cc` of channel block `k`, as coordinates of the arrays. -/
def row (bi : ℕ) (p : Fin 8) : Fin 32 := ⟨(8 * bi + p.val) % 32, Nat.mod_lt _ (by norm_num)⟩
def chan (k : ℕ) (cc : Fin 32) : Fin 256 := ⟨(32 * k + cc.val) % 256, Nat.mod_lt _ (by norm_num)⟩

/-- The inner product along the channel axis restricted to the first `cnt` channel blocks. -/
def part (x y : Act) (bi cnt : ℕ) (p : Fin 8) (h w : Fin 64) : EReal :=
  ∑ k ∈ Finset.range cnt, ∑ cc : Fin 32, x (ix4 (row bi p) (chan k cc) h w) * y (ix4 (row bi p) (chan k cc) h w)

theorem part_succ (x y : Act) (bi cnt : ℕ) (p : Fin 8) (h w : Fin 64) :
    part x y bi (cnt + 1) p h w
      = part x y bi cnt p h w + ∑ cc : Fin 32, x (ix4 (row bi p) (chan cnt cc) h w) * y (ix4 (row bi p) (chan cnt cc) h w) :=
  Finset.sum_range_succ _ _

theorem part_one (x y : Act) (bi : ℕ) (p : Fin 8) (h w : Fin 64) :
    part x y bi 1 p h w = ∑ cc : Fin 32, x (ix4 (row bi p) (chan 0 cc) h w) * y (ix4 (row bi p) (chan 0 cc) h w) := by
  unfold part; rw [Finset.sum_range_one]

/-- Eight blocks of 32 channels are the 256 channels, each once. -/
theorem sum_chan (g : Fin 256 → EReal) : ∑ k ∈ Finset.range 8, ∑ cc : Fin 32, g (chan k cc) = ∑ c : Fin 256, g c := by
  rw [Finset.sum_range fun k => ∑ cc : Fin 32, g (chan k cc)]
  rw [← Fintype.sum_prod_type' (fun (k : Fin 8) (cc : Fin 32) => g (chan k.val cc))]
  refine Fintype.sum_equiv (finProdFinEquiv (m := 8) (n := 32)) _ g fun kc => congrArg g (Fin.ext ?_)
  obtain ⟨k, cc⟩ := kc
  show (32 * k.val + cc.val) % 256 = cc.val + 32 * k.val
  have := k.isLt; have := cc.isLt; omega

/-- So the sum over all eight channel blocks is the inner product of the specification. -/
theorem part_full (x y : Act) (bi : ℕ) (p : Fin 8) (h w : Fin 64) : part x y bi 8 p h w = dot x y (row bi p) h w :=
  sum_chan fun c => x (ix4 (row bi p) c h w) * y (ix4 (row bi p) c h w)

/-- An element of an activation block at point `t`, in the arrays' coordinates. -/
theorem elt0 (c : Dev nD) (t : Fin cfg0.N) (bi k : ℕ) (hb : t.val / 8 = bi) (hk : t.val % 8 = k) (p : Fin 8) (cc : Fin 32) (h w : Fin 64) :
    (iblk m c 0 t : Vec Ideal S8x32x64x64 .f32) (ix4 p cc h w) = argU m c (ix4 (row bi p) (chan k cc) h w) := by
  subst hb; subst hk
  have := lt32 t; have := p.isLt; have := cc.isLt
  exact block0 m c t (ix4 p cc h w) (ix4 (row (t.val / 8) p) (chan (t.val % 8) cc) h w)
    (show (8 * (t.val / 8) + p.val) % 32 = 8 * (t.val / 8) + p.val by omega)
    (show (32 * (t.val % 8) + cc.val) % 256 = 32 * (t.val % 8) + cc.val by omega) rfl rfl

theorem elt1 (c : Dev nD) (t : Fin cfg0.N) (bi k : ℕ) (hb : t.val / 8 = bi) (hk : t.val % 8 = k) (p : Fin 8) (cc : Fin 32) (h w : Fin 64) :
    (iblk m c 1 t : Vec Ideal S8x32x64x64 .f32) (ix4 p cc h w) = argV m c (ix4 (row bi p) (chan k cc) h w) := by
  subst hb; subst hk
  have := lt32 t; have := p.isLt; have := cc.isLt
  exact block1 m c t (ix4 p cc h w) (ix4 (row (t.val / 8) p) (chan (t.val % 8) cc) h w)
    (show (8 * (t.val / 8) + p.val) % 32 = 8 * (t.val / 8) + p.val by omega)
    (show (32 * (t.val % 8) + cc.val) % 256 = 32 * (t.val % 8) + cc.val by omega) rfl rfl

/-- An element of the mask's block at point `t`. -/
theorem elt2 (c : Dev nD) (t : Fin cfg0.N) (bi : ℕ) (hb : t.val / 8 = bi) (p : Fin 8) (h w : Fin 64) :
    (iblk m c 2 t : Vec Ideal S8x64x64 .i32) (ix3 p h w) = argK m c (ix3 (row bi p) h w) := by
  subst hb
  have := lt32 t; have := p.isLt
  exact block2 m c t (ix3 p h w) (ix3 (row (t.val / 8) p) h w)
    (show (8 * (t.val / 8) + p.val) % 32 = 8 * (t.val / 8) + p.val by omega) rfl rfl

/-- One block's three channel sums, in the arrays' coordinates (`x0`, `x1` are the two activation blocks at the point). -/
theorem blk01 (c : Dev nD) (t : Fin cfg0.N) (bi k : ℕ) (hb : t.val / 8 = bi) (hk : t.val % 8 = k)
    (x0 x1 : Vec Ideal S8x32x64x64 .f32) (e0 : x0 = iblk m c 0 t) (e1 : x1 = iblk m c 1 t) (p : Fin 8) (h w : Fin 64) :
    (∑ cc : Fin 32, x0 (ix4 p cc h w) * x1 (ix4 p cc h w))
      = ∑ cc : Fin 32, argU m c (ix4 (row bi p) (chan k cc) h w) * argV m c (ix4 (row bi p) (chan k cc) h w) := by
  subst e0; subst e1
  exact Finset.sum_congr rfl fun cc _ => by rw [elt0 m c t bi k hb hk p cc h w, elt1 m c t bi k hb hk p cc h w]
theorem blk00 (c : Dev nD) (t : Fin cfg0.N) (bi k : ℕ) (hb : t.val / 8 = bi) (hk : t.val % 8 = k)
    (x0 : Vec Ideal S8x32x64x64 .f32) (e0 : x0 = iblk m c 0 t) (p : Fin 8) (h w : Fin 64) :
    (∑ cc : Fin 32, x0 (ix4 p cc h w) * x0 (ix4 p cc h w))
      = ∑ cc : Fin 32, argU m c (ix4 (row bi p) (chan k cc) h w) * argU m c (ix4 (row bi p) (chan k cc) h w) := by
  subst e0
  exact Finset.sum_congr rfl fun cc _ => by rw [elt0 m c t bi k hb hk p cc h w]
theorem blk11 (c : Dev nD) (t : Fin cfg0.N) (bi k : ℕ) (hb : t.val / 8 = bi) (hk : t.val % 8 = k)
    (x1 : Vec Ideal S8x32x64x64 .f32) (e1 : x1 = iblk m c 1 t) (p : Fin 8) (h w : Fin 64) :
    (∑ cc : Fin 32, x1 (ix4 p cc h w) * x1 (ix4 p cc h w))
      = ∑ cc : Fin 32, argV m c (ix4 (row bi p) (chan k cc) h w) * argV m c (ix4 (row bi p) (chan k cc) h w) := by
  subst e1
  exact Finset.sum_congr rfl fun cc _ => by rw [elt1 m c t bi k hb hk p cc h w]

/-- THE INVARIANT: after point `n` each accumulator is the partial inner product over the channel blocks met so far. -/
theorem acc_eq (c : Dev nD) : ∀ (n : ℕ) (hn : n < cfg0.N) (p : Fin 8) (h w : Fin 64),
    acc0 m c n hn (ix3 p h w) = part (argU m c) (argV m c) (n / 8) (n % 8 + 1) p h w
    ∧ acc1 m c n hn (ix3 p h w) = part (argU m c) (argU m c) (n / 8) (n % 8 + 1) p h w
    ∧ acc2 m c n hn (ix3 p h w) = part (argV m c) (argV m c) (n / 8) (n % 8 + 1) p h w := by
  intro n
  induction n with
  | zero =>
    intro hn p h w
    obtain ⟨e0, e1, e2⟩ := step_first m c ⟨0, hn⟩ rfl
    refine ⟨?_, ?_, ?_⟩
    · refine (congrFun e0 (ix3 p h w)).trans ?_
      rw [acc8, zero5, zero_add, part_one]
      exact blk01 m c ⟨0, hn⟩ 0 0 (Nat.zero_div 8) (Nat.zero_mod 8) (iblk m c 0 ⟨0, hn⟩) (iblk m c 1 ⟨0, hn⟩) rfl rfl p h w
    · refine (congrFun e1 (ix3 p h w)).trans ?_
      rw [acc9, zero6, zero_add, part_one]
      exact blk00 m c ⟨0, hn⟩ 0 0 (Nat.zero_div 8) (Nat.zero_mod 8) (iblk m c 0 ⟨0, hn⟩) rfl p h w
    · refine (congrFun e2 (ix3 p h w)).trans ?_
      rw [cast1, acc10, zero7, zero_add, part_one]
      exact blk11 m c ⟨0, hn⟩ 0 0 (Nat.zero_div 8) (Nat.zero_mod 8) (iblk m c 1 ⟨0, hn⟩) rfl p h w
  | succ n ih =>
    intro hn p h w
    by_cases h0 : (n + 1) % 8 = 0
    · obtain ⟨e0, e1, e2⟩ := step_first m c ⟨n + 1, hn⟩ h0
      rw [h0, zero_add]
      refine ⟨?_, ?_, ?_⟩
      · refine (congrFun e0 (ix3 p h w)).trans ?_
        rw [acc8, zero5, zero_add, part_one]
        exact blk01 m c ⟨n + 1, hn⟩ ((n + 1) / 8) 0 rfl h0 (iblk m c 0 ⟨n + 1, hn⟩) (iblk m c 1 ⟨n + 1, hn⟩) rfl rfl p h w
      · refine (congrFun e1 (ix3 p h w)).trans ?_
        rw [acc9, zero6, zero_add, part_one]
        exact blk00 m c ⟨n + 1, hn⟩ ((n + 1) / 8) 0 rfl h0 (iblk m c 0 ⟨n + 1, hn⟩) rfl p h w
      · refine (congrFun e2 (ix3 p h w)).trans ?_
        rw [cast1, acc10, zero7, zero_add, part_one]
        exact blk11 m c ⟨n + 1, hn⟩ ((n + 1) / 8) 0 rfl h0 (iblk m c 1 ⟨n + 1, hn⟩) rfl p h w
    · obtain ⟨e0, e1, e2⟩ := step_next m c ⟨n + 1, hn⟩ h0
      obtain ⟨i0, i1, i2⟩ := ih (Nat.lt_of_succ_lt hn) p h w
      have d1 : (n + 1) / 8 = n / 8 := by omega
      have d2 : (n + 1) % 8 = n % 8 + 1 := by omega
      refine ⟨?_, ?_, ?_⟩
      · rw [d1, d2, part_succ (argU m c) (argV m c) (n / 8) (n % 8 + 1) p h w, ← i0]
        refine (congrFun e0 (ix3 p h w)).trans ?_
        rw [acc8]
        exact congrArg (acc0 m c n (Nat.lt_of_succ_lt hn) (ix3 p h w) + ·)
          (blk01 m c ⟨n + 1, hn⟩ (n / 8) (n % 8 + 1) d1 d2 (iblk m c 0 ⟨n + 1, hn⟩) (iblk m c 1 ⟨n + 1, hn⟩) rfl rfl p h w)
      · rw [d1, d2, part_succ (argU m c) (argU m c) (n / 8) (n % 8 + 1) p h w, ← i1]
        refine (congrFun e1 (ix3 p h w)).trans ?_
        rw [acc9]
        exact congrArg (acc1 m c n (Nat.lt_of_succ_lt hn) (ix3 p h w) + ·)
          (blk00 m c ⟨n + 1, hn⟩ (n / 8) (n % 8 + 1) d1 d2 (iblk m c 0 ⟨n + 1, hn⟩) rfl p h w)
      · rw [d1, d2, part_succ (argV m c) (argV m c) (n / 8) (n % 8 + 1) p h w, ← i2]
        refine (congrFun e2 (ix3 p h w)).trans ?_
        rw [cast1, acc10]
        exact congrArg (acc2 m c n (Nat.lt_of_succ_lt hn) (ix3 p h w) + ·)
          (blk11 m c ⟨n + 1, hn⟩ (n / 8) (n % 8 + 1) d1 d2 (iblk m c 1 ⟨n + 1, hn⟩) rfl p h w)

/-- The per-batch masked sum of similarities, and the per-batch count of marked positions. -/
def batchNum (u v : Act) (k : Msk) (b : Fin 32) : EReal := ∑ h : Fin 64, ∑ w : Fin 64, sim u v b h w * ind (k (ix3 b h w))
def batchDen (k : Msk) (b : Fin 32) : EReal := ∑ h : Fin 64, ∑ w : Fin 64, ind (k (ix3 b h w))

/-- At the last channel block of batch block `t / 8`, every lane of row `p` of the numerator block holds batch
    `8 (t / 8) + p`'s masked sum of similarities, and of the count block its count of marked positions. -/
theorem out_num (c : Dev nD) (t : Fin cfg0.N) (h1 : t.val % 8 = 7) (p : Fin 8) (l : Fin 128) :
    (outsAt0 m c t.val t.isLt).1 (ix2 p l) = batchNum (argU m c) (argV m c) (argK m c) (row (t.val / 8) p) := by
  refine (congrFun (step_out m c t h1).1 (ix2 p l)).trans ?_
  rw [fin3]
  unfold batchNum sim
  refine Finset.sum_congr rfl fun h _ => Finset.sum_congr rfl fun w _ => ?_
  obtain ⟨i0, i1, i2⟩ := acc_eq m c t.val t.isLt p h w
  rw [i0, i1, i2, h1, part_full, part_full, part_full, elt2 m c t (t.val / 8) rfl p h w]

theorem out_den (c : Dev nD) (t : Fin cfg0.N) (h1 : t.val % 8 = 7) (p : Fin 8) (l : Fin 128) :
    (outsAt0 m c t.val t.isLt).2.1 (ix2 p l) = batchDen (argK m c) (row (t.val / 8) p) := by
  refine (congrFun (step_out m c t h1).2 (ix2 p l)).trans ?_
  rw [fin4]
  unfold batchDen
  exact Finset.sum_congr rfl fun h _ => Finset.sum_congr rfl fun w _ => by rw [elt2 m c t (t.val / 8) rfl p h w]

end Cert.KernelIdeal.Accum

end
-- ==== Proof.OutArray.lean ====
/-
  What the two result arrays hold after the whole grid. Grid point `t` of the 4 × 8 grid is batch block `t / 8`; the
  result blocks are written back at the last channel block of each batch block (`t % 8 = 7`), block `t / 8` of the
  [32, 128] array, rows `8 (t / 8) … 8 (t / 8) + 7`. The four written blocks tile the array, so row `r` ends holding,
  in each of its 128 lanes, batch `r`'s masked sum of similarities (first array) and its count of marked positions
  (second array).
-/
import proofs.«113364_j69913477644540_2_alg».proof.Proof.Accum
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.OutArray
open Cert.KernelIdeal Cert.KernelIdeal.Gen Cert.KernelIdeal.Accum Cert.MaskedCosine Idealize.ShloMosaic Idealize.ShloMosaic.ValueIdx

variable (m : (ℓ : Loc nD τ sig) → Buf (Elt Ideal) ℓ)

/-- The grid has 32 points. -/
private theorem lt_grid (t : Fin cfg0.N) : t.val < 32 := lt_of_lt_of_eq t.isLt (show cfg0.N = 32 from N_0)

/-- The block of either result at point `t` is block `(t / 8, 0)` of its array. -/
theorem index3 : ∀ t : Fin cfg0.N, win0_3.index t 0 = t.val / 8 ∧ win0_3.index t 1 = 0 :=
  (by decide +kernel : ∀ t : Fin grid0.N, win0_3.index t 0 = t.val / 8 ∧ win0_3.index t 1 = 0)
theorem index4 : ∀ t : Fin cfg0.N, win0_4.index t 0 = t.val / 8 ∧ win0_4.index t 1 = 0 :=
  (by decide +kernel : ∀ t : Fin grid0.N, win0_4.index t 0 = t.val / 8 ∧ win0_4.index t 1 = 0)

/-- Row `p` of batch block `bi` is row `8 bi + p` of the array, for the four batch blocks of the grid. -/
private theorem row_val (bi : ℕ) (hb : bi < 4) (p : Fin 8) : (row bi p).val = 8 * bi + p.val := by
  show (8 * bi + p.val) % 32 = 8 * bi + p.val
  have := p.isLt; omega

/-- The first result array after the grid: each row holds its batch's masked sum of similarities, in every lane. -/
def numArr (c : Dev nD) : Buf (Elt Ideal) ((c : Thread nD τ).loc main_v0_0) :=
  fun j : S32x128.Idx => batchNum (argU m c) (argV m c) (argK m c) ⟨(j 0).val, (j 0).isLt⟩

/-- What a point that writes the first result back writes is its block of that array. -/
theorem flushed_num (c : Dev nD) (t : Fin cfg0.N) (hf : (cfg0.win 3).flush t = true) :
    (dats m 0 c).flushed 3 t = ((cfg0.win 3).blk t).view.read (Elt Ideal) (numArr m c) := by
  have h7 : t.val % 8 = 7 := (flush0_3 t).mp hf
  have ht := lt_grid t
  show (cfg0.win 3).cut (grid0.coords t) ((dats m 0 c).after 3 t) = _
  rw [after0_3]
  funext y
  rw [View.read_apply]
  have hy : (y 0).val < 8 := (y 0).isLt
  refine ((congrArg (outsAt0 m c t.val t.isLt).1 (eq_ix2 (n0 := 8) (n1 := 128) y)).trans
    (out_num m c t h7 (y 0) (y 1))).trans ?_
  refine congrArg (batchNum (argU m c) (argV m c) (argK m c)) (Fin.ext ?_)
  rw [row_val (t.val / 8) (by omega) (y 0)]
  show 8 * (t.val / 8) + (y 0).val = win0_3.index t 0 * 8 + 1 * (y 0).val
  rw [(index3 t).1]; omega

/-- Every row of the first result array is in the block of the point that ends its batch block. -/
theorem cover_num (i : S32x128.Idx) :
    ∃ t : Fin cfg0.N, (cfg0.win 3).flush t = true ∧ i ∈ ((cfg0.win 3).blk t).view.set := by
  have hN : cfg0.N = 32 := N_0
  have hi0 : (i 0).val < 32 := (i 0).isLt
  have hi1 : (i 1).val < 128 := (i 1).isLt
  have hlt : 8 * ((i 0).val / 8) + 7 < cfg0.N := by rw [hN]; omega
  refine ⟨⟨8 * ((i 0).val / 8) + 7, hlt⟩, (flush0_3 _).mpr (by show (8 * ((i 0).val / 8) + 7) % 8 = 7; omega), ?_⟩
  obtain ⟨e0, e1⟩ := index3 ⟨8 * ((i 0).val / 8) + 7, hlt⟩
  have e0' : win0_3.index ⟨8 * ((i 0).val / 8) + 7, hlt⟩ 0 = (i 0).val / 8 := by rw [e0]; show (8 * ((i 0).val / 8) + 7) / 8 = _; omega
  show i ∈ ((View.whole main_v0_0).slice (win0_3.rect ⟨8 * ((i 0).val / 8) + 7, hlt⟩)).set
  rw [View.set_slice_whole, Rect.mem_set_unit]
  intro a
  match a with
  | ⟨0, _⟩ =>
    show win0_3.index ⟨8 * ((i 0).val / 8) + 7, hlt⟩ 0 * 8 ≤ (i 0).val
      ∧ (i 0).val < win0_3.index ⟨8 * ((i 0).val / 8) + 7, hlt⟩ 0 * 8 + 8
    rw [e0']; omega
  | ⟨1, _⟩ =>
    show win0_3.index ⟨8 * ((i 0).val / 8) + 7, hlt⟩ 1 * 128 ≤ (i 1).val
      ∧ (i 1).val < win0_3.index ⟨8 * ((i 0).val / 8) + 7, hlt⟩ 1 * 128 + 128
    rw [e1]; omega

/-- So the first result array ends holding, in every lane of row `r`, batch `r`'s masked sum of similarities. -/
theorem final_num (c : Dev nD) (r : Fin 32) (l : Fin 128) :
    ((dats m 0 c).arrAt 3 cfg0.N : S32x128.Idx → EReal) (ix2 r l) = batchNum (argU m c) (argV m c) (argK m c) r :=
  congrFun ((dats m 0 c).arrAt_eq_of_cover 3 (numArr m c) (flushed_num m c) cover_num) (ix2 r l)

/-- The second result array after the grid: each row holds its batch's count of marked positions, in every lane. -/
def denArr (c : Dev nD) : Buf (Elt Ideal) ((c : Thread nD τ).loc main_v0_1) :=
  fun j : S32x128.Idx => batchDen (argK m c) ⟨(j 0).val, (j 0).isLt⟩

/-- What a point that writes the second result back writes is its block of that array. -/
theorem flushed_den (c : Dev nD) (t : Fin cfg0.N) (hf : (cfg0.win 4).flush t = true) :
    (dats m 0 c).flushed 4 t = ((cfg0.win 4).blk t).view.read (Elt Ideal) (denArr m c) := by
  have h7 : t.val % 8 = 7 := (flush0_4 t).mp hf
  have ht := lt_grid t
  show (cfg0.win 4).cut (grid0.coords t) ((dats m 0 c).after 4 t) = _
  rw [after0_4]
  funext y
  rw [View.read_apply]
  have hy : (y 0).val < 8 := (y 0).isLt
  refine ((congrArg (outsAt0 m c t.val t.isLt).2.1 (eq_ix2 (n0 := 8) (n1 := 128) y)).trans
    (out_den m c t h7 (y 0) (y 1))).trans ?_
  refine congrArg (batchDen (argK m c)) (Fin.ext ?_)
  rw [row_val (t.val / 8) (by omega) (y 0)]
  show 8 * (t.val / 8) + (y 0).val = win0_4.index t 0 * 8 + 1 * (y 0).val
  rw [(index4 t).1]; omega

/-- Every row of the second result array is in the block of the point that ends its batch block. -/
theorem cover_den (i : S32x128.Idx) :
    ∃ t : Fin cfg0.N, (cfg0.win 4).flush t = true ∧ i ∈ ((cfg0.win 4).blk t).view.set := by
  have hN : cfg0.N = 32 := N_0
  have hi0 : (i 0).val < 32 := (i 0).isLt
  have hi1 : (i 1).val < 128 := (i 1).isLt
  have hlt : 8 * ((i 0).val / 8) + 7 < cfg0.N := by rw [hN]; omega
  refine ⟨⟨8 * ((i 0).val / 8) + 7, hlt⟩, (flush0_4 _).mpr (by show (8 * ((i 0).val / 8) + 7) % 8 = 7; omega), ?_⟩
  obtain ⟨e0, e1⟩ := index4 ⟨8 * ((i 0).val / 8) + 7, hlt⟩
  have e0' : win0_4.index ⟨8 * ((i 0).val / 8) + 7, hlt⟩ 0 = (i 0).val / 8 := by rw [e0]; show (8 * ((i 0).val / 8) + 7) / 8 = _; omega
  show i ∈ ((View.whole main_v0_1).slice (win0_4.rect ⟨8 * ((i 0).val / 8) + 7, hlt⟩)).set
  rw [View.set_slice_whole, Rect.mem_set_unit]
  intro a
  match a with
  | ⟨0, _⟩ =>
    show win0_4.index ⟨8 * ((i 0).val / 8) + 7, hlt⟩ 0 * 8 ≤ (i 0).val
      ∧ (i 0).val < win0_4.index ⟨8 * ((i 0).val / 8) + 7, hlt⟩ 0 * 8 + 8
    rw [e0']; omega
  | ⟨1, _⟩ =>
    show win0_4.index ⟨8 * ((i 0).val / 8) + 7, hlt⟩ 1 * 128 ≤ (i 1).val
      ∧ (i 1).val < win0_4.index ⟨8 * ((i 0).val / 8) + 7, hlt⟩ 1 * 128 + 128
    rw [e1]; omega

/-- So the second result array ends holding, in every lane of row `r`, batch `r`'s count of marked positions. -/
theorem final_den (c : Dev nD) (r : Fin 32) (l : Fin 128) :
    ((dats m 0 c).arrAt 4 cfg0.N : S32x128.Idx → EReal) (ix2 r l) = batchDen (argK m c) r :=
  congrFun ((dats m 0 c).arrAt_eq_of_cover 4 (denArr m c) (flushed_den m c) cover_den) (ix2 r l)

end Cert.KernelIdeal.OutArray

end
-- ==== Proof.TailValue.lean ====
/-
  The value of the host operations that follow the kernel's one call, at the ideal instance.

  Each of the two [32, 128] output arrays keeps its column 0 (a slice to [32, 1], then a reshape to [32]); the 32 kept
  entries are summed from zero, and the first sum is divided by the second. So the result is the quotient of the two
  column sums: the slice with zero offsets reads the array at the same coordinates, the reshape of a [32, 1] array to
  [32] reads row `k` at `(k, 0)` (equal row-major positions), and the one-axis sum from the zero constant is the
  sum over the 32 rows.
-/
import proofs.«113364_j69913477644540_2_alg».proof.Proof.Gen.KernelIdeal
import Idealize.ShloMosaic.Lib.ValueIdx
import Idealize.ShloMosaic.PureOps.Ideal.Laws
import Idealize.ShloMosaic.Lib.Pipeline.Value

noncomputable section

open scoped BigOperators

namespace Cert.KernelIdeal.TailValue
open Cert.KernelIdeal Idealize.ShloMosaic Idealize.ShloMosaic.ValueIdx

/-- Column 0 of each output array summed over the 32 batch rows, then the quotient of the two sums. -/
def tail {F : FTy → Type} [FloatOps F] (A3 A4 : (⟨S32x128, .f32⟩ : BufTy).Contents (Elt F)) : (⟨S_, .f32⟩ : BufTy).Contents (Elt F) :=
  Host.divf
    (Host.reduceAdd (shapeCast S32 (extractStridedSlice S32x1 ![0, 0] A3 Facts₀.slices_S32x128_S32x1_0_0) Facts₀.shapeCasts_S32x1_S32) (constant S_ .f32 0x00000000#32) Facts₀.reducesTo_S32_S_d0 Facts₀.h_S_)
    (Host.reduceAdd (shapeCast S32 (extractStridedSlice S32x1 ![0, 0] A4 Facts₀.slices_S32x128_S32x1_0_0) Facts₀.shapeCasts_S32x1_S32) (constant S_ .f32 0x00000000#32) Facts₀.reducesTo_S32_S_d0 Facts₀.h_S_)

/-! ## A sum over a rank-1 index set, by its coordinate -/

/-- A rank-1 index set is its one coordinate range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-! ## One operation at a time -/

/-- The slice `[0:32, 0:1]` read at `(r, 0)` is the array at `(r, 0)`: both offsets are zero. -/
theorem slice_apply {α : Type} (A : S32x128.Idx → α) (r : Fin 32) :
    extractStridedSlice S32x1 ![0, 0] A Facts₀.slices_S32x128_S32x1_0_0 (ix2 r (0 : Fin 1)) = A (ix2 r (0 : Fin 128)) := by
  refine extractStridedSlice_apply _ A _ _ _ ?_
  intro a
  match a with
  | ⟨0, _⟩ => show r.val = 0 + r.val; omega
  | ⟨1, _⟩ => rfl

/-- The reshape of a `[32, 1]` array to `[32]` read at `k` is the array at `(k, 0)`: the two indices have the
    same row-major position `k`. -/
theorem reshape_apply {α : Type} (v : S32x1.Idx → α) (k : Fin 32) :
    shapeCast S32 v Facts₀.shapeCasts_S32x1_S32 (ix1 k) = v (ix2 k (0 : Fin 1)) := by
  refine shapeCast_apply v _ _ _ ?_
  rw [Shape.rowMajor_val_two, Shape.rowMajor_val_one]
  show k.val * 1 + 0 = k.val
  omega

/-- The sum of a `[32]` array over its one axis, from the zero constant, is the sum of its 32 entries (the result has
    rank zero, so the sum runs over every index of the array). -/
theorem reduce_apply (x : (⟨S32, .f32⟩ : BufTy).Contents (Elt Ideal)) (i : S_.Idx) :
    Host.reduceAdd x (constant (F := Ideal) S_ .f32 0x00000000#32) Facts₀.reducesTo_S32_S_d0 Facts₀.h_S_ i
      = ∑ k : Fin 32, x (ix1 k) := by
  have h : Host.reduceAdd x (constant (F := Ideal) S_ .f32 0x00000000#32) Facts₀.reducesTo_S32_S_d0 Facts₀.h_S_ i
      = (constant (F := Ideal) S_ .f32 0x00000000#32) (Shape.Idx.first Facts₀.h_S_) + ∑ k : Fin 32, x (ix1 k) := by
    simp only [Host.reduceAdd, Ideal.hostReduceAdd_def]
    refine (Ideal.hostReduceAdd_total Facts₀.reducesTo_S32_S_d0 (fun b => b.elim0) x _ i).trans ?_
    exact congrArg (_ + ·) (sum_idx1 (n := 32) x)
  rw [h, constant_apply, Ideal.ofBits_zero_f32, zero_add]

/-- The host's division of two scalars, at their one index, is the ideal division of the two values. -/
theorem divf_apply0 (a b : (⟨S_, .f32⟩ : BufTy).Contents (Elt Ideal)) (i : S_.Idx) :
    Host.divf (F := Ideal) (s := S_) (φ := .f32) a b i = Ideal.div (a i) (b i) := rfl

/-- Column 0 of an output array, sliced, reshaped and summed: the sum of the column's 32 entries. -/
theorem column_sum (A : (⟨S32x128, .f32⟩ : BufTy).Contents (Elt Ideal)) (f : Fin 32 → EReal)
    (hA : ∀ r : Fin 32, A (ix2 r (0 : Fin 128)) = f r) (i : S_.Idx) :
    Host.reduceAdd (shapeCast S32 (extractStridedSlice S32x1 ![0, 0] A Facts₀.slices_S32x128_S32x1_0_0) Facts₀.shapeCasts_S32x1_S32)
        (constant (F := Ideal) S_ .f32 0x00000000#32) Facts₀.reducesTo_S32_S_d0 Facts₀.h_S_ i
      = ∑ r : Fin 32, f r := by
  rw [reduce_apply]
  refine Finset.sum_congr rfl fun k _ => ?_
  rw [reshape_apply, slice_apply, hA]

/-! ## The tail -/

/-- The tail's result is the quotient of the two column sums. -/
theorem tail_apply (A3 A4 : (⟨S32x128, .f32⟩ : BufTy).Contents (Elt Ideal)) (f3 f4 : Fin 32 → EReal)
    (h3 : ∀ r : Fin 32, A3 (ix2 r (0 : Fin 128)) = f3 r) (h4 : ∀ r : Fin 32, A4 (ix2 r (0 : Fin 128)) = f4 r) (i : S_.Idx) :
    tail (F := Ideal) A3 A4 i = Ideal.div (∑ r : Fin 32, f3 r) (∑ r : Fin 32, f4 r) := by
  unfold tail
  rw [divf_apply0, column_sum A3 f3 h3, column_sum A4 f4 h4]

end Cert.KernelIdeal.TailValue

end
-- ==== Proof.Final.lean ====
import proofs.«113364_j69913477644540_2_alg».proof.Proof.OutArray
import proofs.«113364_j69913477644540_2_alg».proof.Proof.TailValue
import Idealize.ShloMosaic.Lib.StableHlo.Run
import Idealize.ShloMosaic.Lib.Tactic

noncomputable section

open scoped BigOperators
open Idealize.ShloMosaic Idealize.ShloMosaic.TcCoe Idealize.SL.Sem

/-! The idealized kernel's result. After the grid the two output arrays hold, in every lane of row `b`, batch `b`'s
    masked sum of similarities and its count of marked positions; the host lines after the region sum lane 0 of each
    over the 32 batches and divide. The sum over batches of the per-batch sums is the specification's sum over all
    positions, term for term, so the result is the masked mean similarity of the argument arrays. -/

namespace Cert.KernelIdeal.Final
open Cert.KernelIdeal Cert.KernelIdeal.Gen Cert.KernelIdeal.Accum Cert.KernelIdeal.OutArray Cert.KernelIdeal.TailValue
open Cert.MaskedCosine Idealize.ShloMosaic.ValueIdx

variable (m : (ℓ : Loc nD τ sig) → Buf (Elt Ideal) ℓ) (ρ : Dev nD → PrngReg)

/-- The per-batch sums add up to the specification's numerator and count. -/
theorem sum_batchNum (u v : Act) (k : Msk) : ∑ r : Fin 32, batchNum u v k r = num u v k := rfl
theorem sum_batchDen (k : Msk) : ∑ r : Fin 32, batchDen k r = den k := rfl

/-- What the host lines after the region leave in the result buffer. -/
theorem tail_eq (c : Dev nD) :
    Pipeline.afterTail₀ cfgs (dats m) 0 (V0 m) [hostOps1] c main_v7
      = fun _ => result (argU m c) (argV m c) (argK m c) := by
  unfold Pipeline.afterTail₀
  show StableHlo.after hostOps1 _ (Proc.devRef .tc main_v7) = _
  after_results
  have e3 : Pipeline.withArrays (cfgs 0).spec c (V0 m c) (fun w => (dats m 0 c).arrAt w (cfgs 0).N) (Proc.devRef .tc main_v0_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v0_1)
      = (dats m 0 c).arrAt 4 cfg0.N := Pipeline.withArrays_arr spec0 launch0.win.arr_inj c _ _ 4
  show tail (F := Ideal)
      (Pipeline.withArrays (cfgs 0).spec c (V0 m c) (fun w => (dats m 0 c).arrAt w (cfgs 0).N) (Proc.devRef .tc main_v0_0))
      (Pipeline.withArrays (cfgs 0).spec c (V0 m c) (fun w => (dats m 0 c).arrAt w (cfgs 0).N) (Proc.devRef .tc main_v0_1)) = _
  rw [e3, e4]
  funext i
  rw [tail_apply _ _ (batchNum (argU m c) (argV m c) (argK m c)) (batchDen (argK m c))
    (fun r => final_num m c r 0) (fun r => final_den m c r 0) i, sum_batchNum, sum_batchDen]
  rfl

/-- THE RUN of the idealized kernel: every weakly fair execution terminates with the result buffer at the masked mean
    similarity of the argument arrays, and the argument arrays unchanged. -/
theorem run : θ_run defs (onTc (τ := τ) (main (F := Ideal))) ⟨m, fun _ => 0, ρ⟩ fun r => ∀ c : Dev nD,
      r.2.mem ((c.tc : Thread nD τ).loc main_v7) = (fun _ => result (argU m c) (argV m c) (argK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.lean ====
/-
  The certificate of the masked mean cosine similarity kernel against its jnp reference.

  Both programs compute, for activations u, v : [32, 256, 64, 64] and an integer mask k : [32, 64, 64], the mean over the
  marked positions (k ≠ 0) of the cosine similarity of u and v along the channel axis, each norm clamped below by the
  same constant. The reference takes each inner product as one sum over the 256 channels and each total as one sum over
  all positions. The kernel walks a 4 × 8 grid: for each block of 8 batches it accumulates the three inner products over
  eight blocks of 32 channels, starting from zero, and at the last channel block forms the similarities, masks them, and
  sums over columns, then rows, into one number per batch (and likewise the count of marked positions); the host lines
  after the kernel sum those 32 numbers and divide. Over the extended reals addition is commutative and associative and
  zero is neutral, so every one of these groupings is the same sum; no other law is used, and the precondition that the
  inputs are finite is never opened. The ideal pass rewrote nothing, so the kernel's idealization is its own text.

  The three frames are the generated ones (the reference's is its generated run with the result dropped).
-/
import proofs.«113364_j69913477644540_2_alg».proof.Defs
import proofs.«113364_j69913477644540_2_alg».proof.Proof.Gen.Kernel
import proofs.«113364_j69913477644540_2_alg».proof.Proof.Gen.Kernel.Frame
import proofs.«113364_j69913477644540_2_alg».proof.Proof.Gen.KernelIdeal
import proofs.«113364_j69913477644540_2_alg».proof.Proof.Gen.KernelIdeal.Frame
import proofs.«113364_j69913477644540_2_alg».proof.Proof.Gen.ReferenceIdeal
import proofs.«113364_j69913477644540_2_alg».proof.Proof.Gen.ReferenceIdeal.Run
import proofs.«113364_j69913477644540_2_alg».proof.Proof.Gen.ReferenceIdeal.Read
import proofs.«113364_j69913477644540_2_alg».proof.Proof.Gen.Pre_finite_inputs
import proofs.«113364_j69913477644540_2_alg».proof.Proof.RefValue
import proofs.«113364_j69913477644540_2_alg».proof.Proof.Final
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

theorem preserves : Cert.preserves_Kernel_KernelIdeal := trivial

/-- From memories that agree on the three arguments, the kernel's result buffer ends at the masked mean similarity
    of its arguments and the reference's at the same function of its own: equal. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c _ => Cert.MaskedCosine.result (Cert.KernelIdeal.Accum.argU m c) (Cert.KernelIdeal.Accum.argV m c) (Cert.KernelIdeal.Accum.argK m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
